-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536 : Shape := ⟨1, ![65536]⟩
abbrev S384x128 : Shape := ⟨2, ![384, 128]⟩
abbrev S384 : Shape := ⟨1, ![384]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S65536 : S_.BroadcastsInDim S65536 (![] : Fin 0 → Fin S65536.rank)
  reducesTo_S65536_S_d0 : S65536.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S384 .f32) (main_arg5 : FVec F S384x128 .f32) (main_arg6 : FVec F S384 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384x128 .f32 := Host.absf main_arg5
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  main_v33

def fn {F : FTy → Type} [FloatOps F] (main_arg0 : FVec F S65536x128 .f32) (main_arg1 : FVec F S65536x128 .f32) (main_arg2 : FVec F S65536 .f32) (main_arg3 : FVec F S384x128 .f32) (main_arg4 : FVec F S384 .f32) (main_arg5 : FVec F S384x128 .f32) (main_arg6 : FVec F S384 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_arg5 main_arg6 main_v13 main_v16
-- ==== Kernel.lean ====
abbrev S65536x128 : Shape := ⟨2, ![65536, 128]⟩
abbrev S65536 : Shape := ⟨1, ![65536]⟩
abbrev S384x128 : Shape := ⟨2, ![384, 128]⟩
abbrev S384 : Shape := ⟨1, ![384]⟩
abbrev S128x384 : Shape := ⟨2, ![128, 384]⟩
abbrev S256x384 : Shape := ⟨2, ![256, 384]⟩
abbrev S128x128 : Shape := ⟨2, ![128, 128]⟩
abbrev S128 : Shape := ⟨1, ![128]⟩
abbrev S65536x1 : Shape := ⟨2, ![65536, 1]⟩
abbrev S4096x128 : Shape := ⟨2, ![4096, 128]⟩
abbrev S4096x1 : Shape := ⟨2, ![4096, 1]⟩
abbrev S4096x256 : Shape := ⟨2, ![4096, 256]⟩
abbrev S4096x384 : Shape := ⟨2, ![4096, 384]⟩
abbrev S1x384 : Shape := ⟨2, ![1, 384]⟩
abbrev S1x128 : Shape := ⟨2, ![1, 128]⟩

abbrev nBuf : Space → Nat
  | .hbm => 17
  | .vmem => 12
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S65536, .f32⟩
  | .hbm, ⟨3, _⟩ => ⟨S384x128, .f32⟩
  | .hbm, ⟨4, _⟩ => ⟨S384, .f32⟩
  | .hbm, ⟨5, _⟩ => ⟨S384x128, .f32⟩
  | .hbm, ⟨6, _⟩ => ⟨S384, .f32⟩
  | .hbm, ⟨7, _⟩ => ⟨S128x384, .f32⟩
  | .hbm, ⟨8, _⟩ => ⟨S128x384, .f32⟩
  | .hbm, ⟨9, _⟩ => ⟨S256x384, .f32⟩
  | .hbm, ⟨10, _⟩ => ⟨S256x384, .bf16⟩
  | .hbm, ⟨11, _⟩ => ⟨S128x128, .f32⟩
  | .hbm, ⟨12, _⟩ => ⟨S128x128, .bf16⟩
  | .hbm, ⟨13, _⟩ => ⟨S384, .f32⟩
  | .hbm, ⟨14, _⟩ => ⟨S128, .f32⟩
  | .hbm, ⟨15, _⟩ => ⟨S65536x1, .f32⟩
  | .hbm, ⟨16, _⟩ => ⟨S65536x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x1, .f32⟩
  | .local _ .vmem, ⟨5, _⟩ => ⟨S4096x1, .f32⟩
  | .local _ .vmem, ⟨6, _⟩ => ⟨S256x384, .bf16⟩
  | .local _ .vmem, ⟨7, _⟩ => ⟨S384, .f32⟩
  | .local _ .vmem, ⟨8, _⟩ => ⟨S128x128, .bf16⟩
  | .local _ .vmem, ⟨9, _⟩ => ⟨S128, .f32⟩
  | .local _ .vmem, ⟨10, _⟩ => ⟨S4096x128, .f32⟩
  | .local _ .vmem, ⟨11, _⟩ => ⟨S4096x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S384x128_S128x384_1_0 : S384x128.Transposes [1, 0] S128x384
  concatenates_S128x384_S128x384_S256x384_d0 : Shape.Concatenates [S128x384, S128x384] S256x384 0
  bitsLt_bf16_f32 : FTy.bits .bf16 < FTy.bits .f32
  slices_S128x384_S128x128_0_256 : S128x384.Slices ![0, 256] S128x128
  slices_S384_S128_256 : S384.Slices ![256] S128
  shapeCasts_S65536_S65536x1 : S65536.ShapeCasts S65536x1
  inb_S4096x128_S4096x128_0_0 : ∀ a, (![0, 0] : Fin 2 → Nat) a + S4096x128.size a ≤ S4096x128.size a
  h_S4096x128 : 0 < S4096x128.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  concatenates_S4096x128_S4096x128_S4096x256_d1 : Shape.Concatenates [S4096x128, S4096x128] S4096x256 1
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S384_S384_0 : ∀ a, (![0] : Fin 1 → Nat) a + S384.size a ≤ S384.size a
  h_S384 : 0 < S384.numel
  shapeCasts_S384_S384 : S384.ShapeCasts S384
  shapeCasts_S384_S1x384 : S384.ShapeCasts S1x384
  broadcasts_S1x384_S4096x384 : S1x384.Broadcasts S4096x384
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S4096x128 : S1x128.Broadcasts S4096x128
  slices_S4096x384_o0_0_S4096x128 : S4096x384.Slices ![0, 0] S4096x128
  slices_S4096x384_o0_128_S4096x128 : S4096x384.Slices ![0, 128] S4096x128
  slices_S4096x384_o0_256_S4096x128 : S4096x384.Slices ![0, 256] S4096x128
  broadcasts_S4096x1_S4096x128 : S4096x1.Broadcasts S4096x128
  dot_S4096x256_S256x384_S4096x384_1_0_0_1_n_n_wf : DotDims.WF S4096x256 S256x384 S4096x384 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S65536x128.size a
  hwx0_1 : ∀ i : grid0.Coords, EltTy.bits .f32 = 32 ∨ (Rect.block (s := S65536x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S65536x1.size a
  hwx0_2 : ∀ i : grid0.Coords, EltTy.bits .f32 = 32 ∨ (Rect.block (s := S65536x1) S4096x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x384.size a ≤ S256x384.size a
  hwx0_3 : ∀ i : grid0.Coords, EltTy.bits .bf16 = 32 ∨ (Rect.block (s := S256x384) S256x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384.size a ≤ S384.size a
  hwx0_4 : ∀ i : grid0.Coords, EltTy.bits .f32 = 32 ∨ (Rect.block (s := S384) S384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S65536x128.size a
  hwx0_7 : ∀ i : grid0.Coords, EltTy.bits .f32 = 32 ∨ (Rect.block (s := S65536x128) S4096x128.size (cc0_transform_7 i) (hinb0_7 i)).WholeWords (EltTy.packing .f32)

variable [Facts₀]

def dot_S4096x256_S256x384_S4096x384_1_0_0_1_n_n : DotDims S4096x256 S256x384 S4096x384 where
  lhsContracting := [1]
  rhsContracting := [0]
  lhsNonContracting := [0]
  rhsNonContracting := [1]
  lhsBatch := []
  rhsBatch := []
  wf := dot_S4096x256_S256x384_S4096x384_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x128 : Shape := ⟨2, ![65536, 128]⟩
abbrev S65536 : Shape := ⟨1, ![65536]⟩
abbrev S384x128 : Shape := ⟨2, ![384, 128]⟩
abbrev S384 : Shape := ⟨1, ![384]⟩
abbrev S65536x384 : Shape := ⟨2, ![65536, 384]⟩
abbrev S1x384 : Shape := ⟨2, ![1, 384]⟩
abbrev S_ : Shape := ⟨0, ![]⟩
abbrev S65536x1 : Shape := ⟨2, ![65536, 1]⟩

abbrev nBuf : Space → Nat
  | .hbm => 51
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S65536, .f32⟩
  | .hbm, ⟨3, _⟩ => ⟨S384x128, .f32⟩
  | .hbm, ⟨4, _⟩ => ⟨S384, .f32⟩
  | .hbm, ⟨5, _⟩ => ⟨S384x128, .f32⟩
  | .hbm, ⟨6, _⟩ => ⟨S384, .f32⟩
  | .hbm, ⟨7, _⟩ => ⟨S65536x384, .f32⟩
  | .hbm, ⟨8, _⟩ => ⟨S1x384, .f32⟩
  | .hbm, ⟨9, _⟩ => ⟨S65536x384, .f32⟩
  | .hbm, ⟨10, _⟩ => ⟨S65536x384, .f32⟩
  | .hbm, ⟨11, _⟩ => ⟨S65536x384, .f32⟩
  | .hbm, ⟨12, _⟩ => ⟨S1x384, .f32⟩
  | .hbm, ⟨13, _⟩ => ⟨S65536x384, .f32⟩
  | .hbm, ⟨14, _⟩ => ⟨S65536x384, .f32⟩
  | .hbm, ⟨15, _⟩ => ⟨S65536x128, .f32⟩
  | .hbm, ⟨16, _⟩ => ⟨S65536x128, .f32⟩
  | .hbm, ⟨17, _⟩ => ⟨S65536x128, .f32⟩
  | .hbm, ⟨18, _⟩ => ⟨S65536x128, .f32⟩
  | .hbm, ⟨19, _⟩ => ⟨S65536x128, .f32⟩
  | .hbm, ⟨20, _⟩ => ⟨S65536x128, .f32⟩
  | .hbm, ⟨21, _⟩ => ⟨S65536x128, .f32⟩
  | .hbm, ⟨22, _⟩ => ⟨S65536x128, .f32⟩
  | .hbm, ⟨23, _⟩ => ⟨S65536x128, .f32⟩
  | .hbm, ⟨24, _⟩ => ⟨S_, .f32⟩
  | .hbm, ⟨25, _⟩ => ⟨S65536x128, .f32⟩
  | .hbm, ⟨26, _⟩ => ⟨S65536x128, .f32⟩
  | .hbm, ⟨27, _⟩ => ⟨S_, .f32⟩
  | .hbm, ⟨28, _⟩ => ⟨S65536x128, .f32⟩
  | .hbm, ⟨29, _⟩ => ⟨S65536x128, .f32⟩
  | .hbm, ⟨30, _⟩ => ⟨S65536x128, .f32⟩
  | .hbm, ⟨31, _⟩ => ⟨S65536x128, .f32⟩
  | .hbm, ⟨32, _⟩ => ⟨S65536x128, .f32⟩
  | .hbm, ⟨33, _⟩ => ⟨S_, .f32⟩
  | .hbm, ⟨34, _⟩ => ⟨S65536x128, .f32⟩
  | .hbm, ⟨35, _⟩ => ⟨S65536x128, .f32⟩
  | .hbm, ⟨36, _⟩ => ⟨S_, .f32⟩
  | .hbm, ⟨37, _⟩ => ⟨S65536x128, .f32⟩
  | .hbm, ⟨38, _⟩ => ⟨S65536x128, .f32⟩
  | .hbm, ⟨39, _⟩ => ⟨S65536x128, .f32⟩
  | .hbm, ⟨40, _⟩ => ⟨S65536x128, .f32⟩
  | .hbm, ⟨41, _⟩ => ⟨S65536x128, .f32⟩
  | .hbm, ⟨42, _⟩ => ⟨S65536x1, .f32⟩
  | .hbm, ⟨43, _⟩ => ⟨S65536x128, .f32⟩
  | .hbm, ⟨44, _⟩ => ⟨S65536x128, .f32⟩
  | .hbm, ⟨45, _⟩ => ⟨S_, .f32⟩
  | .hbm, ⟨46, _⟩ => ⟨S65536x128, .f32⟩
  | .hbm, ⟨47, _⟩ => ⟨S65536x128, .f32⟩
  | .hbm, ⟨48, _⟩ => ⟨S65536x128, .f32⟩
  | .hbm, ⟨49, _⟩ => ⟨S65536x128, .f32⟩
  | .hbm, ⟨50, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]

class Facts₀ : Prop where
  bcast_S384_S1x384_1 : S384.BroadcastsInDim S1x384 (![1] : Fin 1 → Fin S1x384.rank)
  bcast_S1x384_S65536x384_0_1 : S1x384.BroadcastsInDim S65536x384 (![0, 1] : Fin 2 → Fin S65536x384.rank)
  slices_S65536x384_S65536x128_0_0 : S65536x384.Slices ![0, 0] S65536x128
  slices_S65536x384_S65536x128_0_128 : S65536x384.Slices ![0, 128] S65536x128
  slices_S65536x384_S65536x128_0_256 : S65536x384.Slices ![0, 256] S65536x128
  bcast_S_S65536x128 : S_.BroadcastsInDim S65536x128 (![] : Fin 0 → Fin S65536x128.rank)
  bcast_S65536_S65536x1_0 : S65536.BroadcastsInDim S65536x1 (![0] : Fin 1 → Fin S65536x1.rank)
  bcast_S65536x1_S65536x128_0_1 : S65536x1.BroadcastsInDim S65536x128 (![0, 1] : Fin 2 → Fin S65536x128.rank)
  dot_S65536x128_S384x128_S65536x384_1_1_0_0_n_n_wf : DotDims.WF S65536x128 S384x128 S65536x384 [1] [1] [0] [0] [] []

variable [Facts₀]

def dot_S65536x128_S384x128_S65536x384_1_1_0_0_n_n : DotDims S65536x128 S384x128 S65536x384 where
  lhsContracting := [1]
  rhsContracting := [1]
  lhsNonContracting := [0]
  rhsNonContracting := [0]
  lhsBatch := []
  rhsBatch := []
  wf := dot_S65536x128_S384x128_S65536x384_1_1_0_0_n_n_wf

class Facts : Prop extends Facts₀ where

variable [Facts]
-- ==== Proof.Cell.lean ====
/-
  A gated recurrent cell whose update gate is scaled by an attention score, entry by entry over the extended reals.

  For a batch row q and a hidden unit j the cell reads three pairs of gate pre-activations — an input part
  x·W_xᵀ + b_x and a state part h·W_hᵀ + b_h, each of width 3·128, cut into the update (u), reset (r) and candidate (c)
  thirds — and returns
      (1 − a·σ(x_u + h_u))·h + a·σ(x_u + h_u)·tanh(x_c + σ(x_r + h_r)·h_c),
  σ the logistic function, a the row's attention score, h the previous state (cell below).

  A fused evaluation contracts the concatenated row [x, h] (length 256) with the stacked weights [W_xᵀ ; W_hᵀ], adds
  the summed bias b_x + b_h, and so only has the SUMS s = x_g + h_g of the three pairs; it recovers the candidate's
  argument from s_c and the state part h_c alone as s_c + (σ(s_r) − 1)·h_c (fusedCell below).  The two agree because
      x_c + h_c + (ρ − 1)·h_c = x_c + ρ·h_c
  whenever h_c and ρ are real numbers (on the extended reals the left side would be undefined-as-⊥ at h_c = ±∞, so this
  is where finiteness of the state part is used; ρ = σ(·) is always real), and because a contraction over 256 = 128 + 128
  positions is the sum of the contractions over its two halves, and (A + B) + (b + b') = (A + b) + (B + b') in any
  commutative monoid.
-/
import Idealize.ShloMosaic.PureOps.Ideal
import Idealize.ShloMosaic.PureOps.Ideal.Laws
import Idealize.ShloMosaic.Lib.IdealHost
import Idealize.ShloMosaic.Lib.ValueIdx

noncomputable section

namespace Cert.GatedCell

open Idealize.ShloMosaic Idealize.ShloMosaic.ValueIdx

/-- Hidden unit j's column in the update, reset and candidate thirds of a gate vector of width 384. -/
abbrev colU (j : Fin 128) : Fin 384 := ⟨j.val, by have := j.isLt; omega⟩
abbrev colR (j : Fin 128) : Fin 384 := ⟨128 + j.val, by have := j.isLt; omega⟩
abbrev colC (j : Fin 128) : Fin 384 := ⟨256 + j.val, by have := j.isLt; omega⟩

/-- Position k of the first half, and of the second half, of an axis of length 256. -/
abbrev lo (k : Fin 128) : Fin 256 := ⟨k.val, by have := k.isLt; omega⟩
abbrev hi (k : Fin 128) : Fin 256 := ⟨128 + k.val, by have := k.isLt; omega⟩

/-- One output entry from the six gate pre-activations, the attention score a and the previous state p. -/
def cell (xu hu xr hr xc hc a p : EReal) : EReal :=
  (1 - a * Ideal.logistic (xu + hu)) * p
    + a * Ideal.logistic (xu + hu) * Ideal.tanh (xc + Ideal.logistic (xr + hr) * hc)

/-- The same entry from the three summed pre-activations and the candidate's state part alone. -/
def fusedCell (su sr sc hc a p : EReal) : EReal :=
  (1 - a * Ideal.logistic su) * p + a * Ideal.logistic su * Ideal.tanh (sc + (Ideal.logistic sr - 1) * hc)

/-- The logistic function takes real values at every extended real (0 at −∞, 1 at +∞). -/
theorem logistic_real (z : EReal) : ∃ r : ℝ, Ideal.logistic z = (r : EReal) := by
  induction z using EReal.rec with
  | bot => exact ⟨0, by rw [Ideal.logistic_bot]; rfl⟩
  | coe x => exact ⟨_, Ideal.logistic_coe x⟩
  | top => exact ⟨1, by rw [Ideal.logistic_top]; rfl⟩

/-- x + b + (ρ − 1)·b = x + ρ·b for real b and ρ, x any extended real. -/
theorem candidate_arg (x : EReal) (b r : ℝ) :
    x + (b : EReal) + ((r : EReal) - 1) * (b : EReal) = x + (r : EReal) * (b : EReal) := by
  rw [← EReal.coe_one, ← EReal.coe_sub, ← EReal.coe_mul, ← EReal.coe_mul, add_assoc, ← EReal.coe_add]
  congr 2
  ring

/-- The fused evaluation is the cell, when the candidate's state part is real. -/
theorem fusedCell_eq_cell (xu hu xr hr xc a p : EReal) (b : ℝ) :
    fusedCell (xu + hu) (xr + hr) (xc + (b : EReal)) (b : EReal) a p = cell xu hu xr hr xc (b : EReal) a p := by
  obtain ⟨r, hr'⟩ := logistic_real (xr + hr)
  unfold fusedCell cell
  rw [hr', candidate_arg]

/-- A sum over 256 positions is the sum over its first 128 plus the sum over its last 128. -/
theorem sum_halves {M : Type*} [AddCommMonoid M] (f : Fin 256 → M) :
    ∑ c : Fin 256, f c = ∑ k : Fin 128, f (lo k) + ∑ k : Fin 128, f (hi k) :=
  Fin.sum_univ_add (a := 128) (b := 128) f

/-- Regrouping two sums and two biases. -/
theorem gate_regroup (A B b b' : EReal) : A + B + (b + b') = A + b + (B + b') := add_add_add_comm A B b b'

/-- The fused evaluation on gates given as two contractions and two biases each: the cell of the regrouped gates, when the
    candidate's state gate is real. -/
theorem fusedCell_of_parts (Au Bu bu bu' Ar Br br br' Ac Bc bc bc' a p : EReal) (r : ℝ) (h : Bc + bc' = (r : EReal)) :
    fusedCell (Au + Bu + (bu + bu')) (Ar + Br + (br + br')) (Ac + Bc + (bc + bc')) (Bc + bc') a p
      = cell (Au + bu) (Bu + bu') (Ar + br) (Br + br') (Ac + bc) (Bc + bc') a p := by
  rw [gate_regroup Au, gate_regroup Ar, gate_regroup Ac, h]
  exact fusedCell_eq_cell _ _ _ _ _ _ _ r

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A contraction of real rows plus a real bias is real. -/
theorem rowDot_real {n : Nat} (f g : Fin n → EReal) (c : EReal) (hf : ∀ k, ∃ r : ℝ, f k = r) (hg : ∀ k, ∃ r : ℝ, g k = r)
    (hc : ∃ r : ℝ, c = r) : ∃ r : ℝ, ∑ k : Fin n, f k * g k + c = (r : EReal) := by
  choose f' hf' using hf
  choose g' hg' using hg
  obtain ⟨c', rfl⟩ := hc
  refine ⟨∑ k : Fin n, f' k * g' k + c', ?_⟩
  rw [EReal.coe_add, coe_sum]
  congr 1
  exact Finset.sum_congr rfl fun k _ => by rw [hf' k, hg' k, EReal.coe_mul]

/-! ## The whole result array -/

/-- Row q's contraction with row g of a weight matrix stored [384, 128], plus bias g. -/
def gate (z : (⟨2, ![65536, 128]⟩ : Shape).Idx → EReal) (W : (⟨2, ![384, 128]⟩ : Shape).Idx → EReal)
    (b : (⟨1, ![384]⟩ : Shape).Idx → EReal) (q : Fin 65536) (g : Fin 384) : EReal :=
  ∑ k : Fin 128, z (ix2 q k) * W (ix2 g k) + b (ix1 g)

/-- Entry (q, j) of the new state: the cell at the input gates of row q of x and the state gates of row q of h. -/
def entry (x h : (⟨2, ![65536, 128]⟩ : Shape).Idx → EReal) (a : (⟨1, ![65536]⟩ : Shape).Idx → EReal)
    (Wx : (⟨2, ![384, 128]⟩ : Shape).Idx → EReal) (bx : (⟨1, ![384]⟩ : Shape).Idx → EReal)
    (Wh : (⟨2, ![384, 128]⟩ : Shape).Idx → EReal) (bh : (⟨1, ![384]⟩ : Shape).Idx → EReal) (q : Fin 65536) (j : Fin 128) : EReal :=
  cell (gate x Wx bx q (colU j)) (gate h Wh bh q (colU j)) (gate x Wx bx q (colR j)) (gate h Wh bh q (colR j))
    (gate x Wx bx q (colC j)) (gate h Wh bh q (colC j)) (a (ix1 q)) (h (ix2 q j))

/-- The new state as one function of the seven argument arrays. -/
def newState (x h : (⟨2, ![65536, 128]⟩ : Shape).Idx → EReal) (a : (⟨1, ![65536]⟩ : Shape).Idx → EReal)
    (Wx : (⟨2, ![384, 128]⟩ : Shape).Idx → EReal) (bx : (⟨1, ![384]⟩ : Shape).Idx → EReal)
    (Wh : (⟨2, ![384, 128]⟩ : Shape).Idx → EReal) (bh : (⟨1, ![384]⟩ : Shape).Idx → EReal) :
    (⟨2, ![65536, 128]⟩ : Shape).Idx → EReal :=
  fun i => entry x h a Wx bx Wh bh (i 0) (i 1)

end Cert.GatedCell

end
-- ==== Proof.Reference.lean ====
import proofs.«105319_j38276748542530_2_alg».proof.Proof.Gen.ReferenceIdeal.Read
import proofs.«105319_j38276748542530_2_alg».proof.Proof.Cell
import Idealize.ShloMosaic.Lib.IdealHost

/-
  The reference program's result is the gated cell, entry by entry.

  Read one operation at a time, the reference computes at (q, j): the input gates x·W_xᵀ + b_x and the state gates
  h·W_hᵀ + b_h (each contraction a sum over the 128 input positions, the bias copied down the rows), their update, reset
  and candidate thirds by column slices at offsets 0, 128 and 256, the logistic function spelt 1 / (1 + exp(−·)), and
  the blend (1 − a·u)·h + a·u·tanh(x_c + r·h_c). After naming each composed index by its coordinates this is the cell of
  row q and unit j word for word.
-/
noncomputable section
namespace Cert.GatedCell
open Idealize.ShloMosaic Idealize.ShloMosaic.ValueIdx Cert.ReferenceIdeal Cert.ReferenceIdeal.Read

/-- The reference's last stage, as a function of the seven argument arrays, is the new state. -/
theorem reference_eq (x0 x1 : S65536x128.Idx → EReal) (x2 : S65536.Idx → EReal) (x3 : S384x128.Idx → EReal) (x4 : S384.Idx → EReal)
    (x5 : S384x128.Idx → EReal) (x6 : S384.Idx → EReal) :
    val_main_v38 (F := Ideal) x0 x1 x2 x3 x4 x5 x6 = newState x0 x1 x2 x3 x4 x5 x6 := by
  funext i
  obtain ⟨q, j, rfl⟩ : ∃ (q : Fin 65536) (j : Fin 128), i = ix2 q j := ⟨i 0, i 1, eq_ix2 i⟩
  simp only [val_main_v38_apply, val_main_v37_apply, val_main_v36_apply, val_main_v35_apply, val_main_v34_apply, val_main_cst_3_apply,
    val_main_v33_apply, val_main_v32_apply, val_main_v31_apply, val_main_v30_apply, val_main_v29_apply, val_main_v28_apply,
    val_main_v27_apply, val_main_v26_apply, val_main_cst_2_apply, val_main_v25_apply, val_main_v24_apply, val_main_cst_1_apply,
    val_main_v23_apply, val_main_v22_apply, val_main_v21_apply, val_main_v20_apply, val_main_v19_apply, val_main_cst_0_apply,
    val_main_v18_apply, val_main_v17_apply, val_main_cst_apply, val_main_v16_apply, val_main_v15_apply, val_main_v14_apply,
    val_main_v13_apply, val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_v0_apply]
  have l8 : ∀ k, lidx_main_v0 (idx_main_v8 (ix2 q j)) k = ix2 q k := fun k => funext fun a => by match a with | ⟨0, _⟩ => rfl | ⟨1, _⟩ => rfl
  have l9 : ∀ k, lidx_main_v0 (idx_main_v9 (ix2 q j)) k = ix2 q k := fun k => funext fun a => by match a with | ⟨0, _⟩ => rfl | ⟨1, _⟩ => rfl
  have l10 : ∀ k, lidx_main_v0 (idx_main_v10 (ix2 q j)) k = ix2 q k := fun k => funext fun a => by match a with | ⟨0, _⟩ => rfl | ⟨1, _⟩ => rfl
  have l11 : ∀ k, lidx_main_v4 (idx_main_v11 (ix2 q j)) k = ix2 q k := fun k => funext fun a => by match a with | ⟨0, _⟩ => rfl | ⟨1, _⟩ => rfl
  have l12 : ∀ k, lidx_main_v4 (idx_main_v12 (ix2 q j)) k = ix2 q k := fun k => funext fun a => by match a with | ⟨0, _⟩ => rfl | ⟨1, _⟩ => rfl
  have l13 : ∀ k, lidx_main_v4 (idx_main_v13 (ix2 q j)) k = ix2 q k := fun k => funext fun a => by match a with | ⟨0, _⟩ => rfl | ⟨1, _⟩ => rfl
  have r8 : ∀ k, ridx_main_v0 (idx_main_v8 (ix2 q j)) k = ix2 (colU j) k := fun k => funext fun a => by match a with | ⟨0, _⟩ => rfl | ⟨1, _⟩ => rfl
  have r9 : ∀ k, ridx_main_v0 (idx_main_v9 (ix2 q j)) k = ix2 (colR j) k := fun k => funext fun a => by match a with | ⟨0, _⟩ => rfl | ⟨1, _⟩ => rfl
  have r10 : ∀ k, ridx_main_v0 (idx_main_v10 (ix2 q j)) k = ix2 (colC j) k := fun k => funext fun a => by match a with | ⟨0, _⟩ => rfl | ⟨1, _⟩ => rfl
  have r11 : ∀ k, ridx_main_v4 (idx_main_v11 (ix2 q j)) k = ix2 (colU j) k := fun k => funext fun a => by match a with | ⟨0, _⟩ => rfl | ⟨1, _⟩ => rfl
  have r12 : ∀ k, ridx_main_v4 (idx_main_v12 (ix2 q j)) k = ix2 (colR j) k := fun k => funext fun a => by match a with | ⟨0, _⟩ => rfl | ⟨1, _⟩ => rfl
  have r13 : ∀ k, ridx_main_v4 (idx_main_v13 (ix2 q j)) k = ix2 (colC j) k := fun k => funext fun a => by match a with | ⟨0, _⟩ => rfl | ⟨1, _⟩ => rfl
  have b8 : idx_main_v1 (idx_main_v2 (idx_main_v8 (ix2 q j))) = ix1 (colU j) := funext fun a => by match a with | ⟨0, _⟩ => rfl
  have b9 : idx_main_v1 (idx_main_v2 (idx_main_v9 (ix2 q j))) = ix1 (colR j) := funext fun a => by match a with | ⟨0, _⟩ => rfl
  have b10 : idx_main_v1 (idx_main_v2 (idx_main_v10 (ix2 q j))) = ix1 (colC j) := funext fun a => by match a with | ⟨0, _⟩ => rfl
  have b11 : idx_main_v5 (idx_main_v6 (idx_main_v11 (ix2 q j))) = ix1 (colU j) := funext fun a => by match a with | ⟨0, _⟩ => rfl
  have b12 : idx_main_v5 (idx_main_v6 (idx_main_v12 (ix2 q j))) = ix1 (colR j) := funext fun a => by match a with | ⟨0, _⟩ => rfl
  have b13 : idx_main_v5 (idx_main_v6 (idx_main_v13 (ix2 q j))) = ix1 (colC j) := funext fun a => by match a with | ⟨0, _⟩ => rfl
  have a0 : idx_main_v31 (idx_main_v32 (ix2 q j)) = ix1 q := funext fun a => by match a with | ⟨0, _⟩ => rfl
  simp only [l8, l9, l10, l11, l12, l13, r8, r9, r10, r11, r12, r13, b8, b9, b10, b11, b12, b13, a0]
  simp only [Ideal.addf_def, Ideal.mulf_def, Ideal.subf_def, Ideal.hostDivf_def, Ideal.hostUnary_exp_def, Ideal.hostUnary_tanh_def,
    Ideal.hostNegf_def, Ideal.negf_def, Ideal.ofBits_def, Ideal.ofBits_one_f32]
  show _ = entry x0 x1 x2 x3 x4 x5 x6 q j
  unfold entry gate cell Ideal.logistic
  rfl

end Cert.GatedCell
end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.Payload.lean ====
import proofs.«105319_j38276748542530_2_alg».proof.Proof.Gen.KernelIdeal.Skeleton
import proofs.«105319_j38276748542530_2_alg».proof.Proof.Cell
import proofs.«105319_j38276748542530_2_alg».proof.Proof.LibPlainMatmul
import Idealize.ShloMosaic.Lib.Pipeline.Value
import Idealize.ShloMosaic.Lib.ValueLayout
import Idealize.ShloMosaic.Lib.ValueIdx
import Idealize.ShloMosaic.Lib.IdealHost

/-
  What the kernel body stores, read at one entry of its block.

  On a block of 4096 rows the body concatenates the row of x with the row of h (256 positions), multiplies by the
  stacked 256 × 384 weights into a zero accumulator and adds the summed bias copied down the rows: the three fused gates.
  It multiplies the row of h by the 128 × 128 candidate weights and adds their bias: the candidate's state part. Column
  slices at 0, 128 and 256 give the update, reset and candidate thirds, and the rest is pointwise. At entry (p, j) this is
  the fused cell of those four numbers, the row's attention score (a [4096, 1] column copied along the lanes) and the
  previous state. The contraction over 256 positions splits into the halves that read x and h.
-/

noncomputable section

namespace Cert.GatedCell

open Idealize.ShloMosaic Idealize.ShloMosaic.ValueIdx Cert.KernelIdeal Cert.KernelIdeal.Gen

/-- Gate g of block row p as the fused product computes it: the row of x0 against the first 128 rows of the stacked
    weights, plus the row of x1 against the last 128, plus the summed bias. -/
def blockGate (x0 x1 : S4096x128.Idx → EReal) (W : S256x384.Idx → EReal) (b : S384.Idx → EReal) (p : Fin 4096) (g : Fin 384) : EReal :=
  (∑ k : Fin 128, x0 (ix2 p k) * W (ix2 (lo k) g) + ∑ k : Fin 128, x1 (ix2 p k) * W (ix2 (hi k) g)) + b (ix1 g)

/-- The product of the row-wise concatenation [x0, x1] with a 256 × 384 matrix, into the zero matrix, at (p, g): the
    contraction over 256 positions taken half by half, each half reading its own operand. -/
theorem fused_product_apply (x0 x1 : FVec Ideal S4096x128 .bf16) (W : FVec Ideal S256x384 .bf16) (p : Fin 4096) (g : Fin 384) :
    matmul dot_S4096x256_S256x384_S4096x384_1_0_0_1_n_n none
        (concatenate S4096x256 1 [⟨S4096x128, x0⟩, ⟨S4096x128, x1⟩] concatenates_S4096x128_S4096x128_S4096x256_d1) W
        (constant S4096x384 .f32 0x00000000#32) (ix2 p g)
      = ∑ k : Fin 128, x0 (ix2 p k) * W (ix2 (lo k) g) + ∑ k : Fin 128, x1 (ix2 p k) * W (ix2 (hi k) g) := by
  refine (Cert.PointConv.plainMatmul_zero_apply (R := 4096) (n := 256) (k := 384)
    dot_S4096x256_S256x384_S4096x384_1_0_0_1_n_n_wf none _ W p g).trans ?_
  rw [sum_halves]
  congr 1
  · refine Finset.sum_congr rfl fun k _ => ?_
    rw [concatenate_pair_apply_left (1 : Fin 2) x0 x1 concatenates_S4096x128_S4096x128_S4096x256_d1 (ix2 p (lo k)) rfl (ix2 p k)
      (fun b => match b with | ⟨0, _⟩ => rfl | ⟨1, _⟩ => rfl)]
  · refine Finset.sum_congr rfl fun k _ => ?_
    rw [concatenate_pair_apply_right (1 : Fin 2) x0 x1 concatenates_S4096x128_S4096x128_S4096x256_d1 (ix2 p (hi k)) rfl rfl (ix2 p k)
      (fun b hb => match b with | ⟨0, _⟩ => rfl | ⟨1, _⟩ => absurd rfl hb) (Nat.add_comm _ _)]

/-- A 4096 × 128 block times a 128 × 128 matrix, into the zero matrix, at (p, j). -/
theorem state_product_apply (x1 : FVec Ideal S4096x128 .bf16) (W : FVec Ideal S128x128 .bf16) (p : Fin 4096) (j : Fin 128) :
    matmul dot_S4096x128_S128x128_S4096x128_1_0_0_1_n_n none x1 W (constant S4096x128 .f32 0x00000000#32) (ix2 p j)
      = ∑ k : Fin 128, x1 (ix2 p k) * W (ix2 k j) :=
  Cert.PointConv.plainMatmul_zero_apply (R := 4096) (n := 128) (k := 128)
    dot_S4096x128_S128x128_S4096x128_1_0_0_1_n_n_wf none x1 W p j

/-- A bias vector of length n stood up as one row and copied down 4096 rows, at (p, g). -/
theorem bias_rows_apply {n : Nat} (b : (⟨1, ![n]⟩ : Shape).Idx → EReal) (h₁ : (⟨1, ![n]⟩ : Shape).ShapeCasts ⟨2, ![1, n]⟩)
    (h₂ : (⟨2, ![1, n]⟩ : Shape).Broadcasts ⟨2, ![4096, n]⟩) (p : Fin 4096) (g : Fin n) :
    broadcastTo ⟨2, ![4096, n]⟩ (shapeCast ⟨2, ![1, n]⟩ b h₁) h₂ (ix2 p g) = b (ix1 g) := by
  rw [broadcastTo_1b_ab_apply, shapeCast_a_1a_apply]

/-- A column [4096, 1] copied along 128 lanes, at (p, j): the column's entry of row p. -/
theorem column_lanes_apply (a : S4096x1.Idx → EReal) (h : S4096x1.Broadcasts S4096x128) (p : Fin 4096) (j : Fin 128) :
    broadcastTo S4096x128 a h (ix2 p j) = a (ix2 p (0 : Fin 1)) :=
  broadcastTo_apply a h (ix2 p j) (ix2 p (0 : Fin 1)) fun ax => by
    match ax with
    | ⟨0, _⟩ => rfl
    | ⟨1, _⟩ => rfl

/-- The logistic function and the hyperbolic tangent act entry by entry. -/
theorem logistic_apply {s : Shape} {φ : FTy} (a : FVec Ideal s φ) (i : s.Idx) : logistic a i = Ideal.logistic (a i) := rfl

theorem tanh_apply {s : Shape} {φ : FTy} (a : FVec Ideal s φ) (i : s.Idx) : tanh a i = Ideal.tanh (a i) := rfl

/-- The update, reset and candidate thirds of a [4096, 384] gate block, at (p, j): columns j, 128 + j and 256 + j. -/
theorem update_third_apply (X : S4096x384.Idx → EReal) (p : Fin 4096) (j : Fin 128) :
    extractStridedSlice S4096x128 ![0, 0] X slices_S4096x384_o0_0_S4096x128 (ix2 p j) = X (ix2 p (colU j)) :=
  slice2_axis1_apply 0 X slices_S4096x384_o0_0_S4096x128 p j (colU j) (Nat.zero_add _).symm

theorem reset_third_apply (X : S4096x384.Idx → EReal) (p : Fin 4096) (j : Fin 128) :
    extractStridedSlice S4096x128 ![0, 128] X slices_S4096x384_o0_128_S4096x128 (ix2 p j) = X (ix2 p (colR j)) :=
  slice2_axis1_apply 128 X slices_S4096x384_o0_128_S4096x128 p j (colR j) rfl

theorem candidate_third_apply (X : S4096x384.Idx → EReal) (p : Fin 4096) (j : Fin 128) :
    extractStridedSlice S4096x128 ![0, 256] X slices_S4096x384_o0_256_S4096x128 (ix2 p j) = X (ix2 p (colC j)) :=
  slice2_axis1_apply 256 X slices_S4096x384_o0_256_S4096x128 p j (colC j) rfl

/-- The body's stored value at (p, j) of its block: the fused cell at the three fused gates of row p, the state part of
    the candidate gate (the row of x1 against the 128 × 128 matrix plus its bias), the row's attention score and the
    previous state. A change of float format is the identity on extended reals, and a cast to the same shape moves nothing. -/
theorem payload_apply (x0 x1 : Vec Ideal S4096x128 .f32) (x2 : Vec Ideal S4096x1 .f32) (x3 : Vec Ideal S256x384 .bf16)
    (x4 : Vec Ideal S384 .f32) (x5 : Vec Ideal S128x128 .bf16) (x6 : Vec Ideal S128 .f32) (p : Fin 4096) (j : Fin 128) :
    k0_pay1 (F := Ideal) x0 x1 x2 x3 x4 x5 x6 (ix2 p j)
      = fusedCell (blockGate x0 x1 x3 x4 p (colU j)) (blockGate x0 x1 x3 x4 p (colR j)) (blockGate x0 x1 x3 x4 p (colC j))
          (∑ k : Fin 128, x1 (ix2 p k) * x5 (ix2 k j) + x6 (ix1 j)) (x2 (ix2 p (0 : Fin 1))) (x1 (ix2 p j)) := by
  unfold k0_pay1
  simp only [shapeCast_self]
  simp only [addf_apply, mulf_apply, subf_apply, broadcast_apply, logistic_apply, tanh_apply, update_third_apply, reset_third_apply,
    candidate_third_apply, fused_product_apply, state_product_apply, bias_rows_apply, column_lanes_apply, truncf_apply,
    Ideal.ofBits_def, Ideal.ofBits_one_f32]
  unfold fusedCell blockGate
  rfl

end Cert.GatedCell

end
-- ==== Proof.LaunchArrays.lean ====
import proofs.«105319_j38276748542530_2_alg».proof.Proof.Gen.KernelIdeal.Frame
import proofs.«105319_j38276748542530_2_alg».proof.Proof.Cell
import Idealize.ShloMosaic.Lib.Pipeline.Value
import Idealize.ShloMosaic.Lib.ValueLayout
import Idealize.ShloMosaic.Lib.ValueIdx
import Idealize.ShloMosaic.Lib.StableHlo.Run

/-
  The arrays the kernel's launch finds, read at an index of the argument arrays.

  Before the launch the program lays the parameters out for the fused product: it transposes W_x and W_h ([384,128] to
  [128,384]), stacks the two transposes along the rows into a [256,384] matrix (rows 0..127 from W_x, rows 128..255 from
  W_h), cuts the candidate third of W_hᵀ (columns 256..383) as a [128,128] matrix, adds the two bias vectors, cuts the
  candidate third of b_h, and views the attention scores as a column [65536,1]. Entry by entry: the stacked matrix at
  (k, g) is W_x(g, k) and at (128 + k, g) is W_h(g, k); the candidate matrix at (k, j) is W_h(256 + j, k); the summed bias
  at g is b_x(g) + b_h(g); the candidate bias at j is b_h(256 + j); the column at (q, 0) is the score of row q.
  (Narrowing to bf16 is the identity on extended reals.)
-/

noncomputable section

namespace Cert.GatedCell

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (c : Dev nD)

/-- The seven argument arrays on core c, as functions of their indices. -/
abbrev inX : S65536x128.Idx → EReal := m ((c : Thread nD τ).loc main_arg0)
abbrev inH : S65536x128.Idx → EReal := m ((c : Thread nD τ).loc main_arg1)
abbrev inA : S65536.Idx → EReal := m ((c : Thread nD τ).loc main_arg2)
abbrev inWx : S384x128.Idx → EReal := m ((c : Thread nD τ).loc main_arg3)
abbrev inBx : S384.Idx → EReal := m ((c : Thread nD τ).loc main_arg4)
abbrev inWh : S384x128.Idx → EReal := m ((c : Thread nD τ).loc main_arg5)
abbrev inBh : S384.Idx → EReal := m ((c : Thread nD τ).loc main_arg6)

/-- The stacked weights as the program computes them. -/
theorem stacked_eq : (V m c main_v3 : S256x384.Idx → EReal)
    = truncf (F := Ideal) .bf16 (concatenate S256x384 0
        [⟨S128x384, transpose S128x384 [1, 0] (inWx m c) transposes_S384x128_S128x384_1_0⟩,
          ⟨S128x384, transpose S128x384 [1, 0] (inWh m c) transposes_S384x128_S128x384_1_0⟩]
        concatenates_S128x384_S128x384_S256x384_d0) bitsLt_bf16_f32 := by
  dsimp only [Gen.V, Gen.hostOps0]; after_results

/-- Rows 0..127 of the stacked weights are W_x transposed. -/
theorem stacked_lo (k : Fin 128) (g : Fin 384) :
    (V m c main_v3 : S256x384.Idx → EReal) (ix2 (lo k) g) = inWx m c (ix2 g k) := by
  refine (congrFun (stacked_eq m c) _).trans ?_
  rw [truncf_apply, concatenate_pair_apply_left (0 : Fin 2)
    (transpose S128x384 [1, 0] (inWx m c) transposes_S384x128_S128x384_1_0) (transpose S128x384 [1, 0] (inWh m c) transposes_S384x128_S128x384_1_0)
    concatenates_S128x384_S128x384_S256x384_d0 (ix2 (lo k) g) rfl (ix2 k g)
    (fun b => match b with | ⟨0, _⟩ => rfl | ⟨1, _⟩ => rfl), transpose_ix2_apply]

/-- Rows 128..255 are W_h transposed. -/
theorem stacked_hi (k : Fin 128) (g : Fin 384) :
    (V m c main_v3 : S256x384.Idx → EReal) (ix2 (hi k) g) = inWh m c (ix2 g k) := by
  refine (congrFun (stacked_eq m c) _).trans ?_
  rw [truncf_apply, concatenate_pair_apply_right (0 : Fin 2)
    (transpose S128x384 [1, 0] (inWx m c) transposes_S384x128_S128x384_1_0) (transpose S128x384 [1, 0] (inWh m c) transposes_S384x128_S128x384_1_0)
    concatenates_S128x384_S128x384_S256x384_d0 (ix2 (hi k) g) rfl rfl (ix2 k g)
    (fun b hb => match b with | ⟨0, _⟩ => absurd rfl hb | ⟨1, _⟩ => rfl) (Nat.add_comm _ _), transpose_ix2_apply]

/-- The candidate weights: columns 256..383 of W_h transposed. -/
theorem candidate_weights (k j : Fin 128) :
    (V m c main_v5 : S128x128.Idx → EReal) (ix2 k j) = inWh m c (ix2 (colC j) k) := by
  have e : (V m c main_v5 : S128x128.Idx → EReal)
      = truncf (F := Ideal) .bf16 (extractStridedSlice S128x128 ![0, 256]
          (transpose S128x384 [1, 0] (inWh m c) transposes_S384x128_S128x384_1_0)
          slices_S128x384_S128x128_0_256) bitsLt_bf16_f32 := by
    dsimp only [Gen.V, Gen.hostOps0]; after_results
  refine (congrFun e _).trans ?_
  rw [truncf_apply, slice2_axis1_apply 256 (transpose S128x384 [1, 0] (inWh m c) transposes_S384x128_S128x384_1_0)
    slices_S128x384_S128x128_0_256 k j (colC j) rfl, transpose_ix2_apply]

/-- The summed bias. -/
theorem summed_bias (g : Fin 384) :
    (V m c main_v6 : S384.Idx → EReal) (ix1 g)
      = inBx m c (ix1 g) + inBh m c (ix1 g) := by
  have e : (V m c main_v6 : S384.Idx → EReal)
      = addf (F := Ideal) (φ := .f32) (inBx m c) (inBh m c) := by
    dsimp only [Gen.V, Gen.hostOps0]; after_results
  exact congrFun e _

/-- The candidate bias: entries 256..383 of b_h. -/
theorem candidate_bias (j : Fin 128) :
    (V m c main_v7 : S128.Idx → EReal) (ix1 j) = inBh m c (ix1 (colC j)) := by
  have e : (V m c main_v7 : S128.Idx → EReal)
      = extractStridedSlice S128 ![256] (inBh m c) slices_S384_S128_256 := by
    dsimp only [Gen.V, Gen.hostOps0]; after_results
  refine (congrFun e _).trans ?_
  exact extractStridedSlice_apply _ _ slices_S384_S128_256 (ix1 j) (ix1 (colC j)) (fun a => match a with | ⟨0, _⟩ => rfl)

/-- The attention scores as a column. -/
theorem score_column (q : Fin 65536) :
    (V m c main_v8 : S65536x1.Idx → EReal) (ix2 q (0 : Fin 1)) = inA m c (ix1 q) := by
  have e : (V m c main_v8 : S65536x1.Idx → EReal)
      = shapeCast S65536x1 (inA m c) shapeCasts_S65536_S65536x1 := by
    dsimp only [Gen.V, Gen.hostOps0]; after_results; rfl
  refine (congrFun e _).trans ?_
  exact shapeCast_apply _ shapeCasts_S65536_S65536x1 (ix2 q (0 : Fin 1)) (ix1 q) (by
    rw [Shape.rowMajor_val_two, Shape.rowMajor_val_one]
    show q.val = q.val * 1 + 0
    omega)

end Cert.GatedCell

end
-- ==== Proof.ResultArray.lean ====
import proofs.«105319_j38276748542530_2_alg».proof.Proof.Gen.KernelIdeal.Value
import proofs.«105319_j38276748542530_2_alg».proof.Proof.Payload
import proofs.«105319_j38276748542530_2_alg».proof.Proof.LaunchArrays

/-
  From the blocks the kernel writes back to its whole result array.

  The launch runs 16 grid points. Point t stages rows 4096·t .. 4096·t + 4095 of x, of h and of the score column, the whole
  of the stacked weights, the summed bias, the candidate weights and the candidate bias, and writes the same rows of the
  result back. So entry (p, j) of what point t writes is the fused cell of row q = 4096·t + p of the arrays the launch
  finds; the 16 blocks cover all 65536 rows; and the result array ends as one function of those arrays.
-/

noncomputable section

namespace Cert.GatedCell

open Idealize.ShloMosaic Idealize.ShloMosaic.TcCoe Idealize.ShloMosaic.ValueIdx Idealize.SL.Sem Cert.KernelIdeal Cert.KernelIdeal.Gen
open Idealize.ShloMosaic.Pipeline (Dat)

/-- Gate g of row q from whole arrays: the row of X against rows 0..127 of the stacked weights, plus the row of H against
    rows 128..255, plus the summed bias. -/
def fusedGate (X H : S65536x128.Idx → EReal) (W : S256x384.Idx → EReal) (b : S384.Idx → EReal) (q : Fin 65536) (g : Fin 384) : EReal :=
  (∑ k : Fin 128, X (ix2 q k) * W (ix2 (lo k) g) + ∑ k : Fin 128, H (ix2 q k) * W (ix2 (hi k) g)) + b (ix1 g)

/-- Entry (q, j) of the result from the arrays the launch finds. -/
def fusedEntry (X H : S65536x128.Idx → EReal) (A : S65536x1.Idx → EReal) (W : S256x384.Idx → EReal) (b : S384.Idx → EReal)
    (Wc : S128x128.Idx → EReal) (bc : S128.Idx → EReal) (q : Fin 65536) (j : Fin 128) : EReal :=
  fusedCell (fusedGate X H W b q (colU j)) (fusedGate X H W b q (colR j)) (fusedGate X H W b q (colC j))
    (∑ k : Fin 128, H (ix2 q k) * Wc (ix2 k j) + bc (ix1 j)) (A (ix2 q (0 : Fin 1))) (H (ix2 q j))

/-- The result array as one function of the arrays the launch finds. -/
def fusedState (X H : S65536x128.Idx → EReal) (A : S65536x1.Idx → EReal) (W : S256x384.Idx → EReal) (b : S384.Idx → EReal)
    (Wc : S128x128.Idx → EReal) (bc : S128.Idx → EReal) : S65536x128.Idx → EReal :=
  fun i => fusedEntry X H A W b Wc bc (i 0) (i 1)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a; rfl

/-- Where each window's block sits at point t, decided over the 16 points: the row blocks of x, h, the score column and
    the result move together, one block of 4096 rows per point; every other window stays at the origin. -/
theorem block_positions : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 ∧ win0_7.index t (0 : Fin 2) ≤ 15 :=
  (by decide +kernel : ∀ t : Fin grid0.N, _)

/-- What point t writes back is block t of the fused state of the arrays the launch finds. -/
theorem written_block (c : Dev nD) (t : Fin cfg0.N) :
    (dats m 0 c).flushed 7 t = ((cfg0.win 7).blk t).view.read (Elt Ideal)
      (fusedState (V m c main_arg0) (V m c main_arg1) (V m c main_v8) (V m c main_v3) (V m c main_v6) (V m c main_v5) (V m c main_v7)) := by
  rw [Cert.KernelIdeal.Value.flushed7]
  unfold out0_7
  rw [View.canon_unit_zero origin2]
  simp only [View.ld_unit_zero (S := S4096x128) origin2, View.ld_unit_zero (S := S4096x1) origin2, View.ld_unit_zero (S := S256x384) origin2,
    View.ld_unit_zero (S := S384) origin1, View.ld_unit_zero (S := S128x128) origin2, View.ld_unit_zero (S := S128) origin1]
  obtain ⟨e00, e01, e10, e11, e20, e21, e30, e31, e40, e50, e51, e60, e70, e71, e72⟩ := block_positions t
  funext y
  obtain ⟨p, j, rfl⟩ : ∃ (p : Fin 4096) (j : Fin 128), y = ix2 p j := ⟨y 0, y 1, eq_ix2 y⟩
  -- the array row under row p of block t
  obtain ⟨q, hq⟩ : ∃ q : Fin 65536, q.val = win0_7.index t (0 : Fin 2) * 4096 + 1 * p.val :=
    ⟨⟨win0_7.index t (0 : Fin 2) * 4096 + 1 * p.val, by have := p.isLt; omega⟩, rfl⟩
  have h7 : ((cfg0.win 7).blk t).view.emb (ix2 p j) = ix2 q j := by
    funext a; apply Fin.ext
    match a with
    | ⟨0, _⟩ => show win0_7.index t (0 : Fin 2) * 4096 + 1 * p.val = q.val; omega
    | ⟨1, _⟩ => show win0_7.index t (1 : Fin 2) * 128 + 1 * j.val = j.val; omega
  show k0_pay1 (iblk m c 0 t) (iblk m c 1 t) (iblk m c 2 t) (iblk m c 3 t) (iblk m c 4 t) (iblk m c 5 t) (iblk m c 6 t) (ix2 p j)
    = fusedState (V m c main_arg0) (V m c main_arg1) (V m c main_v8) (V m c main_v3) (V m c main_v6) (V m c main_v5) (V m c main_v7)
        (((cfg0.win 7).blk t).view.emb (ix2 p j))
  rw [h7]
  refine (payload_apply (iblk m c 0 t) (iblk m c 1 t) (iblk m c 2 t) (iblk m c 3 t) (iblk m c 4 t) (iblk m c 5 t) (iblk m c 6 t) p j).trans ?_
  show _ = fusedEntry (V m c main_arg0) (V m c main_arg1) (V m c main_v8) (V m c main_v3) (V m c main_v6) (V m c main_v5) (V m c main_v7) q j
  have hX : ∀ k : Fin 128, iblk m c 0 t (ix2 p k) = V m c main_arg0 (ix2 q k) := fun k => by
    show V m c main_arg0 (((cfg0.win 0).blk t).view.emb (ix2 p k)) = _
    congr 1; funext a; apply Fin.ext
    match a with
    | ⟨0, _⟩ => show win0_0.index t (0 : Fin 2) * 4096 + 1 * p.val = q.val; omega
    | ⟨1, _⟩ => show win0_0.index t (1 : Fin 2) * 128 + 1 * k.val = k.val; omega
  have hH : ∀ k : Fin 128, iblk m c 1 t (ix2 p k) = V m c main_arg1 (ix2 q k) := fun k => by
    show V m c main_arg1 (((cfg0.win 1).blk t).view.emb (ix2 p k)) = _
    congr 1; funext a; apply Fin.ext
    match a with
    | ⟨0, _⟩ => show win0_1.index t (0 : Fin 2) * 4096 + 1 * p.val = q.val; omega
    | ⟨1, _⟩ => show win0_1.index t (1 : Fin 2) * 128 + 1 * k.val = k.val; omega
  have hA : iblk m c 2 t (ix2 p (0 : Fin 1)) = V m c main_v8 (ix2 q (0 : Fin 1)) := by
    show V m c main_v8 (((cfg0.win 2).blk t).view.emb (ix2 p (0 : Fin 1))) = _
    congr 1; funext a; apply Fin.ext
    match a with
    | ⟨0, _⟩ => show win0_2.index t (0 : Fin 2) * 4096 + 1 * p.val = q.val; omega
    | ⟨1, _⟩ => show win0_2.index t (1 : Fin 2) * 1 + 1 * 0 = 0; omega
  have hW : ∀ (k : Fin 256) (g : Fin 384), iblk m c 3 t (ix2 k g) = V m c main_v3 (ix2 k g) := fun k g => by
    show V m c main_v3 (((cfg0.win 3).blk t).view.emb (ix2 k g)) = _
    congr 1; funext a; apply Fin.ext
    match a with
    | ⟨0, _⟩ => show win0_3.index t (0 : Fin 2) * 256 + 1 * k.val = k.val; omega
    | ⟨1, _⟩ => show win0_3.index t (1 : Fin 2) * 384 + 1 * g.val = g.val; omega
  have hb : ∀ g : Fin 384, iblk m c 4 t (ix1 g) = V m c main_v6 (ix1 g) := fun g => by
    show V m c main_v6 (((cfg0.win 4).blk t).view.emb (ix1 g)) = _
    congr 1; funext a; apply Fin.ext
    match a with
    | ⟨0, _⟩ => show win0_4.index t (0 : Fin 1) * 384 + 1 * g.val = g.val; omega
  have hWc : ∀ (k j' : Fin 128), iblk m c 5 t (ix2 k j') = V m c main_v5 (ix2 k j') := fun k j' => by
    show V m c main_v5 (((cfg0.win 5).blk t).view.emb (ix2 k j')) = _
    congr 1; funext a; apply Fin.ext
    match a with
    | ⟨0, _⟩ => show win0_5.index t (0 : Fin 2) * 128 + 1 * k.val = k.val; omega
    | ⟨1, _⟩ => show win0_5.index t (1 : Fin 2) * 128 + 1 * j'.val = j'.val; omega
  have hbc : ∀ j' : Fin 128, iblk m c 6 t (ix1 j') = V m c main_v7 (ix1 j') := fun j' => by
    show V m c main_v7 (((cfg0.win 6).blk t).view.emb (ix1 j')) = _
    congr 1; funext a; apply Fin.ext
    match a with
    | ⟨0, _⟩ => show win0_6.index t (0 : Fin 1) * 128 + 1 * j'.val = j'.val; omega
  unfold fusedEntry fusedGate blockGate
  simp only [hX, hH, hA, hW, hb, hWc, hbc]

/-- An index of the result array is in point t's block iff each coordinate is in the block's range on its axis. -/
theorem mem_block (t : Fin cfg0.N) (i : S65536x128.Idx) :
    i ∈ ((cfg0.win 7).blk t).view.set ↔ ∀ a : Fin 2, win0_7.index t a * S4096x128.size a ≤ (i a).val
      ∧ (i a).val < win0_7.index t a * S4096x128.size a + S4096x128.size a := by
  show i ∈ ((View.whole main_v9).slice (win0_7.rect t)).set ↔ _
  rw [View.set_slice_whole, Rect.mem_set_unit]
  exact Iff.rfl

/-- Every index of the result array is in the block of the point numbered by its row divided by 4096. -/
theorem covered (i : S65536x128.Idx) : ∃ t : Fin cfg0.N, (cfg0.win 7).flush t = true ∧ i ∈ ((cfg0.win 7).blk t).view.set := by
  have hi0 : (i 0).val < 65536 := (i 0).isLt
  have hi1 : (i 1).val < 128 := (i 1).isLt
  obtain ⟨t, ht⟩ : ∃ t : Fin cfg0.N, t.val = (i 0).val / 4096 :=
    ⟨⟨(i 0).val / 4096, lt_of_lt_of_eq (by omega : (i 0).val / 4096 < 16) N_0.symm⟩, rfl⟩
  obtain ⟨-, -, -, -, -, -, -, -, -, -, -, -, e70, e71, -⟩ := block_positions t
  refine ⟨t, flush0_7 t, ?_⟩
  rw [mem_block]
  intro a
  match a with
  | ⟨0, _⟩ =>
    show win0_7.index t (0 : Fin 2) * 4096 ≤ (i 0).val ∧ (i 0).val < win0_7.index t (0 : Fin 2) * 4096 + 4096
    omega
  | ⟨1, _⟩ =>
    show win0_7.index t (1 : Fin 2) * 128 ≤ (i 1).val ∧ (i 1).val < win0_7.index t (1 : Fin 2) * 128 + 128
    omega

/-- After the run the result array is the fused state of the arrays the launch finds. -/
theorem result_array (c : Dev nD) :
    (dats m 0 c).arrAt 7 cfg0.N
      = fusedState (V m c main_arg0) (V m c main_arg1) (V m c main_v8) (V m c main_v3) (V m c main_v6) (V m c main_v5) (V m c main_v7) :=
  (dats m 0 c).arrAt_eq_of_cover 7 _ (fun t _ => written_block m c t) covered

/-- The kernel's run with its result array named: the fused state of the arrays the launch finds; the arguments unchanged. -/
theorem kernel_run : θ_run defs (onTc (τ := τ) (main (F := Ideal))) ⟨m, fun _ => 0, ρ⟩ fun r => ∀ c : Dev nD,
      r.2.mem ((c : Thread nD τ).loc main_v9)
        = fusedState (V m c main_arg0) (V m c main_arg1) (V m c main_v8) (V m c main_v3) (V m c main_v6) (V m c main_v5) (V m c main_v7)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (result_array m c), (h c).2⟩) (Cert.KernelIdeal.Value.run_blocks m ρ)

end Cert.GatedCell

end
-- ==== Proof.RealInputs.lean ====
import proofs.«105319_j38276748542530_2_alg».proof.Defs
import proofs.«105319_j38276748542530_2_alg».proof.Proof.Gen.Pre_finite_inputs
import proofs.«105319_j38276748542530_2_alg».proof.Proof.LaunchArrays
import Idealize.ShloMosaic.Lib.ReduceAll

/-
  Finite inputs are real numbers.

  The precondition says of each argument array that |x| < +∞ at every entry (a comparison of the absolute value with the
  +∞ word, reduced by "and" over all indices, the seven results conjoined). On the extended reals |x| = max x (−x) is
  below +∞ exactly when x is neither infinity, that is, when x is a real number. Read back for the previous state, the
  state weights and the state bias — the three arrays whose finiteness the fused candidate gate needs.
-/

noncomputable section

namespace Cert.GatedCell

open Idealize.ShloMosaic Idealize.ShloMosaic.TcCoe Idealize.ShloMosaic.ValueIdx Idealize.SL.Sem Cert.KernelIdeal

/-- An extended real whose absolute value compares below the +∞ word is a real number. -/
theorem real_of_abs_lt_inf (x : EReal)
    (h : FloatOps.cmpf (F := Ideal) (φ := .f32) .olt (FloatOps.hostAbsf x) (FloatOps.ofBits .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x using EReal.rec with
  | bot => simp at h
  | coe r => exact ⟨r, rfl⟩
  | top => simp at h

instance : Subsingleton Cert.Pre_finite_inputs.S_.Idx := ⟨fun a b => funext fun d => d.elim0⟩

/-- Under the precondition the previous state, the state weights and the state bias hold real numbers. -/
theorem state_inputs_real [hP : Cert.Pre_finite_inputs.Facts] (m : (ℓ : Loc nD τ sig) → Buf (Elt Ideal) ℓ)
    (hpre : Cert.Pre_KernelIdeal m) (c : Dev nD) :
    (∀ i, ∃ r : ℝ, inH m c i = (r : EReal)) ∧ (∀ i, ∃ r : ℝ, inWh m c i = (r : EReal)) ∧ (∀ i, ∃ r : ℝ, inBh m c i = (r : EReal)) := by
  have h := congrFun (hpre c) ix0
  dsimp only [Cert.Pre_finite_inputs.fn, Cert.Pre_finite_inputs.fn_part1] at h
  obtain ⟨h28, h32⟩ := IntOp.andi_eq_one.1 h
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  refine ⟨fun i => ?_, fun i => ?_, fun i => ?_⟩
  · exact real_of_abs_lt_inf _ (Host.reduce_andi_all _ _ _ _ _ h7 i)
  · exact real_of_abs_lt_inf _ (Host.reduce_andi_all _ _ _ _ _ h27 i)
  · exact real_of_abs_lt_inf _ (Host.reduce_andi_all _ _ _ _ _ h32 i)

end Cert.GatedCell

end
-- ==== Proof.Agreement.lean ====
import proofs.«105319_j38276748542530_2_alg».proof.Proof.ResultArray
import proofs.«105319_j38276748542530_2_alg».proof.Proof.RealInputs

/-
  The fused state of the arrays the launch finds is the new state of the argument arrays.

  At (q, j): the stacked weights read W_x on their first 128 rows and W_h on their last 128, so each fused gate is
  (x·W_xᵀ)(q, g) + (h·W_hᵀ)(q, g) + (b_x(g) + b_h(g)), which regroups to the input gate plus the state gate; the candidate
  weights and bias read the candidate third of W_h and b_h, so the kernel's extra product is the candidate's state gate;
  that gate is a real number when h, W_h and b_h are real, and then the fused cell is the cell.
-/

noncomputable section

namespace Cert.GatedCell

open Idealize.ShloMosaic Idealize.ShloMosaic.TcCoe Idealize.ShloMosaic.ValueIdx Idealize.SL.Sem Cert.KernelIdeal Cert.KernelIdeal.Gen

/-- The law, for any arrays related entry by entry as the launch's arrays are to the arguments. -/
theorem fusedEntry_eq_entry (X H : S65536x128.Idx → EReal) (A : S65536.Idx → EReal) (Wx : S384x128.Idx → EReal) (bx : S384.Idx → EReal)
    (Wh : S384x128.Idx → EReal) (bh : S384.Idx → EReal)
    (A2 : S65536x1.Idx → EReal) (W : S256x384.Idx → EReal) (b : S384.Idx → EReal) (Wc : S128x128.Idx → EReal) (bc : S128.Idx → EReal)
    (hlo : ∀ (k : Fin 128) (g : Fin 384), W (ix2 (lo k) g) = Wx (ix2 g k))
    (hhi : ∀ (k : Fin 128) (g : Fin 384), W (ix2 (hi k) g) = Wh (ix2 g k))
    (hWc : ∀ k j : Fin 128, Wc (ix2 k j) = Wh (ix2 (colC j) k))
    (hb : ∀ g : Fin 384, b (ix1 g) = bx (ix1 g) + bh (ix1 g))
    (hbc : ∀ j : Fin 128, bc (ix1 j) = bh (ix1 (colC j)))
    (hA : ∀ q : Fin 65536, A2 (ix2 q (0 : Fin 1)) = A (ix1 q))
    (hH : ∀ i, ∃ r : ℝ, H i = (r : EReal)) (hW : ∀ i, ∃ r : ℝ, Wh i = (r : EReal)) (hB : ∀ i, ∃ r : ℝ, bh i = (r : EReal))
    (q : Fin 65536) (j : Fin 128) :
    fusedEntry X H A2 W b Wc bc q j = entry X H A Wx bx Wh bh q j := by
  unfold fusedEntry fusedGate entry gate
  simp only [hlo, hhi, hWc, hb, hbc, hA]
  obtain ⟨r, hr⟩ := rowDot_real (fun k => H (ix2 q k)) (fun k => Wh (ix2 (colC j) k)) (bh (ix1 (colC j)))
    (fun k => hH _) (fun k => hW _) (hB _)
  exact fusedCell_of_parts _ _ _ _ _ _ _ _ _ _ _ _ _ _ r hr

theorem fused_eq_newState [hP : Cert.Pre_finite_inputs.Facts] (m : (ℓ : Loc nD τ sig) → Buf (Elt Ideal) ℓ)
    (hpre : Cert.Pre_KernelIdeal m) (c : Dev nD) :
    fusedState (V m c main_arg0) (V m c main_arg1) (V m c main_v8) (V m c main_v3) (V m c main_v6) (V m c main_v5) (V m c main_v7)
      = newState (inX m c) (inH m c) (inA m c) (inWx m c) (inBx m c) (inWh m c) (inBh m c) := by
  obtain ⟨hH, hW, hB⟩ := state_inputs_real m hpre c
  have eX : V m c main_arg0 = inX m c := V_main_arg0 m c
  have eH : V m c main_arg1 = inH m c := V_main_arg1 m c
  rw [eX, eH]
  funext i
  exact fusedEntry_eq_entry (inX m c) (inH m c) (inA m c) (inWx m c) (inBx m c) (inWh m c) (inBh m c)
    (V m c main_v8) (V m c main_v3) (V m c main_v6) (V m c main_v5) (V m c main_v7)
    (stacked_lo m c) (stacked_hi m c) (candidate_weights m c) (summed_bias m c) (candidate_bias m c) (score_column m c)
    hH hW hB (i 0) (i 1)

end Cert.GatedCell

end
-- ==== Proof.lean ====
/-
  A gated recurrent cell with an attention-scaled update gate: the fused kernel against the plain reference, as
  extended reals.

  The reference forms the input gates x·W_xᵀ + b_x and the state gates h·W_hᵀ + b_h, takes their update, reset and
  candidate thirds, and returns (1 − a·u)·h + a·u·tanh(x_c + r·h_c) with u = σ(x_u + h_u), r = σ(x_r + h_r).
  The kernel, on blocks of 4096 rows, contracts the concatenated row [x, h] with the stacked weights [W_xᵀ ; W_hᵀ] and the
  summed bias, so it has only the sums x_g + h_g; it recovers the candidate's argument as (x_c + h_c) + (r − 1)·h_c from one
  more product h·W_h,cᵀ + b_h,c. The two are equal when h_c is a real number, which the precondition (every input
  finite) gives; the logistic function and the changes of float format are the same functions on both sides.

  The frames and the runs with their result arrays named are generated; written by hand are the value of the kernel's
  stored block at an entry, the arrays its launch finds, the passage from blocks to the whole array, the reference's
  last stage as the cell, and the law that joins the two.
-/
import proofs.«105319_j38276748542530_2_alg».proof.Defs
import proofs.«105319_j38276748542530_2_alg».proof.Proof.Gen.Kernel
import proofs.«105319_j38276748542530_2_alg».proof.Proof.Gen.Kernel.Skeleton
import proofs.«105319_j38276748542530_2_alg».proof.Proof.Gen.Kernel.Launch
import proofs.«105319_j38276748542530_2_alg».proof.Proof.Gen.Kernel.Points
import proofs.«105319_j38276748542530_2_alg».proof.Proof.Gen.Kernel.Frame
import proofs.«105319_j38276748542530_2_alg».proof.Proof.Gen.KernelIdeal
import proofs.«105319_j38276748542530_2_alg».proof.Proof.Gen.KernelIdeal.Skeleton
import proofs.«105319_j38276748542530_2_alg».proof.Proof.Gen.KernelIdeal.Launch
import proofs.«105319_j38276748542530_2_alg».proof.Proof.Gen.KernelIdeal.Points
import proofs.«105319_j38276748542530_2_alg».proof.Proof.Gen.KernelIdeal.Frame
import proofs.«105319_j38276748542530_2_alg».proof.Proof.Gen.ReferenceIdeal
import proofs.«105319_j38276748542530_2_alg».proof.Proof.Gen.Pre_finite_inputs
import proofs.«105319_j38276748542530_2_alg».proof.Proof.Gen.KernelIdeal.Value
import proofs.«105319_j38276748542530_2_alg».proof.Proof.Gen.ReferenceIdeal.Run
import proofs.«105319_j38276748542530_2_alg».proof.Proof.Gen.ReferenceIdeal.Read
import proofs.«105319_j38276748542530_2_alg».proof.Proof.Reference
import proofs.«105319_j38276748542530_2_alg».proof.Proof.Agreement
import Idealize.ShloMosaic.Adequacy
import Idealize.ShloMosaic.Init

noncomputable section

namespace Cert.Proof

open Idealize.ShloMosaic Idealize.ShloMosaic.TcCoe Idealize.SL.Sem Cert.GatedCell

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the new state of the (agreeing) argument arrays in their result. -/
theorem algebraic : Cert.algebraic_KernelIdeal_ReferenceIdeal := by
  intro m ρ m' ρ' hpre hagree
  refine ⟨fun c => newState (inX m c) (inH m c) (inA m c) (inWx m c) (inBx m c) (inWh m c) (inBh m c), ?_, ?_⟩
  · exact (θ_run Cert.KernelIdeal.defs _ _).mono (fun r h c => ⟨(h c).1.trans (fused_eq_newState m hpre c), (h c).2⟩)
      (kernel_run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v38_eq, (hagree c).1, (hagree c).2.1, (hagree c).2.2.1, (hagree c).2.2.2.1,
      (hagree c).2.2.2.2.1, (hagree c).2.2.2.2.2.1, (hagree c).2.2.2.2.2.2]
    exact reference_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
